-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S1 : Shape := ⟨1, ![1]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192 .f32) (main_arg1 : FVec F S8192x8192 .f32) (main_arg2 : FVec F S8192x8192 .f32) (main_arg3 : FVec F S1 .f32) (main_arg4 : FVec F S1 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S8192 : Shape := ⟨1, ![8192]⟩
abbrev S8192x8192 : Shape := ⟨2, ![8192, 8192]⟩
abbrev S1 : Shape := ⟨1, ![1]⟩
abbrev S8192x1 : Shape := ⟨2, ![8192, 1]⟩
abbrev S1x8192 : Shape := ⟨2, ![1, 8192]⟩
abbrev S64x128 : Shape := ⟨2, ![64, 128]⟩
abbrev S1024x1 : Shape := ⟨2, ![1024, 1]⟩
abbrev S1x1024 : Shape := ⟨2, ![1, 1024]⟩
abbrev S1024x1024 : Shape := ⟨2, ![1024, 1024]⟩
abbrev S8x128 : Shape := ⟨2, ![8, 128]⟩
abbrev S1024 : Shape := ⟨1, ![1024]⟩
abbrev S1x1 : Shape := ⟨2, ![1, 1]⟩
abbrev S_ : Shape := ⟨0, ![]⟩

abbrev nBuf : Space → Nat
  | .hbm => 39
  | .vmem => 16
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x8192, .f32⟩
  | .hbm, ⟨3, _⟩ => ⟨S1, .f32⟩
  | .hbm, ⟨4, _⟩ => ⟨S1, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S_, .f32⟩
  | .hbm, ⟨38, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  v5
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S64x128_S_d0_1 : S64x128.ReducesTo [0, 1] S_
  h_S_ : 0 < S_.numel
  bcast_S_S1 : S_.BroadcastsInDim S1 (![] : Fin 0 → Fin S1.rank)
  hrank0 : 0 < grid0.rank
  k0_mult1_dvd : ∀ i : grid0.Coords, 1024 ∣ (k0_mult1 i).toNat
  k0_mult2_dvd : ∀ i : grid0.Coords, 1024 ∣ (k0_mult2 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x128.size a
  hwx0_6 : ∀ i : grid0.Coords, EltTy.bits .f32 = 32 ∨ (Rect.block (s := S64x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x128.size a
  hwx0_7 : ∀ i : grid0.Coords, EltTy.bits .f32 = 32 ∨ (Rect.block (s := S64x128) S8x128.size (cc0_transform_7 i) (hinb0_7 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S1 : Shape := ⟨1, ![1]⟩
abbrev S8192x1 : Shape := ⟨2, ![8192, 1]⟩
abbrev S1x8192 : Shape := ⟨2, ![1, 8192]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x8192, .f32⟩
  | .hbm, ⟨3, _⟩ => ⟨S1, .f32⟩
  | .hbm, ⟨4, _⟩ => ⟨S1, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S1 : S_.BroadcastsInDim S1 (![] : Fin 0 → Fin S1.rank)

variable [Facts₀]

class Facts : Prop extends Facts₀ where

variable [Facts]
-- ==== Proof.Cases.lean ====
/-
  What the kernel body leaves in its four output buffers, case by case.

  At a grid point (i, j) the body writes the updated correlation tile, and adds to each of three running totals — kept
  as 8 × 128 tiles that stay in place while j advances — the point's contribution. At the first point of a row of tiles
  (j = 0) the three totals are first set to zero, then read back and added to; at every later point they are read as the
  point before left them. Each buffer is stored whole, so what it holds afterwards is its last store's value.
-/
import proofs.«116466_j87935160418590_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S1024x1 .f32) (h2 : a2.IsWhole) (a3 : Memref sig .tc .vmem S1x1024 .f32) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole) (a7 : Memref sig .tc .vmem S8x128 .f32) (h7 : a7.IsWhole)
  (a8 : Memref sig .tc .vmem S8x128 .f32) (h8 : a8.IsWhole) (a9 : Memref sig .tc .vmem S8x128 .f32) (h9 : a9.IsWhole)
  (x0 : Vec F S1024x1 .f32) (x1 : Vec F S1x1024 .f32) (x2 : Vec F S1024x1024 .f32) (x3 : Vec F S1024x1024 .f32)

/-- The scale each tile total is multiplied by before it is spread over the 1024 slots of its running total. -/
abbrev scale : F .f32 := Scalar.ofBits .f32 0x3A800000#32

/-- At a later point of a row of tiles the correlation tile's buffer ends at the updated tile. -/
theorem tile_B (hc : ¬cond0_0 i) (xo5 xo6 xo7 : Vec F S8x128 .f32) :
    out0_B_4 c i a2 h2 a3 h3 a4 h4 a5 h5 a6 h6 a7 h7 a8 h8 a9 h9 hc x0 x1 x2 x3 xo5 xo6 xo7 = k0_pay7 i x0 x1 x3 := by
  unfold out0_B_4
  rw [View.read_writes_eq_canon _ _ _ (cover0_B_4 c i a2 h2 a3 h3 a4 h4 a5 h5 a6 h6 a7 h7 a8 h8 a9 h9 hc x0 x1 x2 x3 xo5 xo6 xo7)]
  unfold kernelRun0_B
  dsimp only
  (try sl_unfold_words)
  rw [View.canon_unit_zero hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At a later point the first running total ends at what the point before left plus the scaled sum of the tile's absolute values. -/
theorem absTotal_B (hc : ¬cond0_0 i) (xo5 xo6 xo7 : Vec F S8x128 .f32) :
    out0_B_5 c i a2 h2 a3 h3 a4 h4 a5 h5 a6 h6 a7 h7 a8 h8 a9 h9 hc x0 x1 x2 x3 xo5 xo6 xo7 = k0_pay1 (k0_pay9 i x0 x1 x3) scale xo5 := by
  unfold out0_B_5
  rw [View.read_writes_eq_canon _ _ _ (cover0_B_5 c i a2 h2 a3 h3 a4 h4 a5 h5 a6 h6 a7 h7 a8 h8 a9 h9 hc x0 x1 x2 x3 xo5 xo6 xo7)]
  unfold kernelRun0_B
  dsimp only
  (try sl_unfold_words)
  rw [View.canon_unit_zero hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At a later point the second running total ends at what the point before left plus the scaled sum of the tile's absolute values times the weights. -/
theorem weightedTotal_B (hc : ¬cond0_0 i) (xo5 xo6 xo7 : Vec F S8x128 .f32) :
    out0_B_6 c i a2 h2 a3 h3 a4 h4 a5 h5 a6 h6 a7 h7 a8 h8 a9 h9 hc x0 x1 x2 x3 xo5 xo6 xo7 = k0_pay2 x2 (k0_pay8 i x0 x1 x3) xo6 := by
  unfold out0_B_6
  rw [View.read_writes_eq_canon _ _ _ (cover0_B_6 c i a2 h2 a3 h3 a4 h4 a5 h5 a6 h6 a7 h7 a8 h8 a9 h9 hc x0 x1 x2 x3 xo5 xo6 xo7)]
  unfold kernelRun0_B
  dsimp only
  (try sl_unfold_words)
  rw [View.canon_unit_zero hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At a later point the third running total ends at what the point before left plus the scaled sum of the tile's weights. -/
theorem weightTotal_B (hc : ¬cond0_0 i) (xo5 xo6 xo7 : Vec F S8x128 .f32) :
    out0_B_7 c i a2 h2 a3 h3 a4 h4 a5 h5 a6 h6 a7 h7 a8 h8 a9 h9 hc x0 x1 x2 x3 xo5 xo6 xo7 = k0_pay3 x2 xo7 := by
  unfold out0_B_7
  rw [View.read_writes_eq_canon _ _ _ (cover0_B_7 c i a2 h2 a3 h3 a4 h4 a5 h5 a6 h6 a7 h7 a8 h8 a9 h9 hc x0 x1 x2 x3 xo5 xo6 xo7)]
  unfold kernelRun0_B
  dsimp only
  (try sl_unfold_words)
  rw [View.canon_unit_zero hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At the first point of a row of tiles the correlation tile's buffer ends at the updated tile. -/
theorem tile_A (hc : cond0_0 i) :
    out0_A_4 c i a2 h2 a3 h3 a4 h4 a5 h5 a6 h6 a7 h7 a8 h8 a9 h9 hc x0 x1 x2 x3 = k0_pay7 i x0 x1 x3 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  (try sl_unfold_words)
  rw [View.canon_unit_zero hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At the first point the first running total ends at the zero tile plus the scaled sum of the tile's absolute values. -/
theorem absTotal_A (hc : cond0_0 i) :
    out0_A_5 c i a2 h2 a3 h3 a4 h4 a5 h5 a6 h6 a7 h7 a8 h8 a9 h9 hc x0 x1 x2 x3 = k0_pay1 (k0_pay9 i x0 x1 x3) scale (k0_pay4 (F := F)) := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At the first point the second running total ends at the zero tile plus the scaled weighted sum. -/
theorem weightedTotal_A (hc : cond0_0 i) :
    out0_A_6 c i a2 h2 a3 h3 a4 h4 a5 h5 a6 h6 a7 h7 a8 h8 a9 h9 hc x0 x1 x2 x3 = k0_pay2 x2 (k0_pay8 i x0 x1 x3) (k0_pay5 (F := F)) := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

/-- At the first point the third running total ends at the zero tile plus the scaled sum of the weights. -/
theorem weightTotal_A (hc : cond0_0 i) :
    out0_A_7 c i a2 h2 a3 h3 a4 h4 a5 h5 a6 h6 a7 h7 a8 h8 a9 h9 hc x0 x1 x2 x3 = k0_pay3 x2 (k0_pay6 (F := F)) := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h7.read_unread, h8.read_unread, h9.read_unread, View.ld_unit_zero (S := S1024x1) hz, View.ld_unit_zero (S := S1x1024) hz, View.ld_unit_zero (S := S1024x1024) hz, View.ld_unit_zero (S := S8x128) hz]

end Cert.KernelIdeal.Cases

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Tile.lean ====
/-
  The two steps every running total of the kernel shares, named once.

  `tileTotal g` sums a 1024 × 1024 tile `g` to one entry (each row first, then the column of row sums);
  `addScaled tot acc` multiplies that entry by 2⁻¹⁰ and adds it to every slot of an 8 × 128 running total `acc`.
  The body's stored values are these two applied to the tile of absolute values, to that tile times the weights, and
  to the weights. Over the extended reals `tileTotal g` is the double sum of `g`'s entries and `addScaled` adds the
  same number to each slot.
-/
import proofs.«116466_j87935160418590_2_alg».proof.Proof.Gen.KernelIdeal.Skeleton
import proofs.«116466_j87935160418590_2_alg».proof.Proof.LibLayout
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

variable {F : FTy → Type} [FloatOps F]

/-- The sum of a tile's entries, as a 1 × 1 array: the rows are summed, then the row sums. -/
def tileTotal (g : FVec F S1024x1024 .f32) : FVec F S1x1 .f32 :=
  shapeCast S1x1 (multiReduction .add [0] S1
    (shapeCast S1024x1 (multiReduction .add [1] S1024 g 0x00000000#32 reduces_S1024x1024_S1024 (.inl rfl) rfl) shapeCasts_S1024_S1024x1)
    0x00000000#32 reduces_S1024x1_S1 (.inl rfl) rfl) shapeCasts_S1_S1x1

/-- A tile total scaled by 2⁻¹⁰ and added to every slot of a running total. -/
def addScaled (tot : FVec F S1x1 .f32) (acc : Vec F S8x128 .f32) : FVec F S8x128 .f32 :=
  addf (shapeCast S8x128 acc shapeCasts_S8x128_S8x128)
    (broadcastTo S8x128 (shapeCast S1x1 (mulf tot (broadcast S1x1 (Scalar.ofBits .f32 0x3A800000#32))) shapeCasts_S1x1_S1x1)
      broadcasts_S1x1_S8x128)

/-- The running totals' starting value. -/
abbrev zeroTile : FVec F S8x128 .f32 := broadcast S8x128 (Scalar.ofBits .f32 0x00000000#32)

/-! ## The body's stored values in these words -/

theorem absTile_eq (i : grid0.Coords) (v7 : Vec F S1024x1 .f32) (v9 : Vec F S1x1024 .f32) (v11 : Vec F S1024x1024 .f32) :
    k0_pay8 i v7 v9 v11 = absf (k0_pay7 i v7 v9 v11) := rfl
theorem absTotal_eq (i : grid0.Coords) (v7 : Vec F S1024x1 .f32) (v9 : Vec F S1x1024 .f32) (v11 : Vec F S1024x1024 .f32) :
    k0_pay9 i v7 v9 v11 = tileTotal (k0_pay8 i v7 v9 v11) := rfl
theorem addAbs_eq (v36 : FVec F S1x1 .f32) (v52 : Vec F S8x128 .f32) :
    k0_pay1 v36 (Scalar.ofBits .f32 0x3A800000#32) v52 = addScaled v36 v52 := rfl
theorem addWeighted_eq (v12 : Vec F S1024x1024 .f32) (v32 : FVec F S1024x1024 .f32) (v58 : Vec F S8x128 .f32) :
    k0_pay2 v12 v32 v58 = addScaled (tileTotal (mulf v32 v12)) v58 := rfl
theorem addWeights_eq (v12 : Vec F S1024x1024 .f32) (v64 : Vec F S8x128 .f32) :
    k0_pay3 v12 v64 = addScaled (tileTotal v12) v64 := rfl
theorem zero1_eq : k0_pay4 (F := F) = zeroTile := rfl
theorem zero2_eq : k0_pay5 (F := F) = zeroTile := rfl
theorem zero3_eq : k0_pay6 (F := F) = zeroTile := rfl

/-! ## Read at an index, over the extended reals -/

/-- A tile's total is the double sum of its entries. -/
theorem tileTotal_apply (g : FVec Ideal S1024x1024 .f32) (u v : Fin 1) :
    tileTotal g (ix2 u v) = ∑ p : Fin 1024, ∑ q : Fin 1024, g (ix2 p q) := by
  unfold tileTotal
  refine (Cert.Attn.Layout.shapeCast_a_a1_apply _ shapeCasts_S1_S1x1 u v).trans ?_
  refine (Ideal.multiReduction_add_single _ _ reduces_S1024x1_S1 _ _ (ix1 u)).trans ?_
  show (∑ p : Fin 1024, _) = _
  refine Finset.sum_congr rfl fun p _ => ?_
  refine (congrArg _ (show reduces_S1024x1_S1.lift (ix1 u) p = ix2 p u from
    funext fun a => by match a with | ⟨0, _⟩ => rfl | ⟨1, _⟩ => rfl)).trans ?_
  refine (Cert.Attn.Layout.shapeCast_a_a1_apply _ shapeCasts_S1024_S1024x1 p u).trans ?_
  refine (Ideal.multiReduction_add_single _ _ reduces_S1024x1024_S1024 _ _ (ix1 p)).trans ?_
  show (∑ q : Fin 1024, _) = _
  refine Finset.sum_congr rfl fun q _ => ?_
  exact congrArg g (funext fun a => by match a with | ⟨0, _⟩ => rfl | ⟨1, _⟩ => rfl)

/-- Every slot of the running total gains the scaled tile total. -/
theorem addScaled_apply (tot : FVec Ideal S1x1 .f32) (acc : Vec Ideal S8x128 .f32) (y : S8x128.Idx) :
    addScaled tot acc y = acc y + tot (ix2 0 0) * Ideal.ofBits .f32 0x3A800000#32 := by
  unfold addScaled
  rw [shapeCast_self, shapeCast_self]
  show acc y + broadcastTo S8x128 (mulf tot (broadcast S1x1 (Scalar.ofBits .f32 0x3A800000#32))) broadcasts_S1x1_S8x128 y = _
  refine congrArg (acc y + ·) ?_
  exact broadcastTo_apply _ broadcasts_S1x1_S8x128 y (ix2 0 0) fun a => by
    match a with
    | ⟨0, _⟩ => show (0 : Nat) = if (1 : Nat) = 1 then 0 else (y 0).val; rw [if_pos rfl]
    | ⟨1, _⟩ => show (0 : Nat) = if (1 : Nat) = 1 then 0 else (y 1).val; rw [if_pos rfl]

/-- The starting value is zero in every slot. -/
theorem zeroTile_apply (y : S8x128.Idx) : zeroTile (F := Ideal) y = 0 := Ideal.ofBits_zero_f32

end Cert.KernelIdeal.Tile

end
-- ==== Proof.Acc.lean ====
/-
  What the four output buffers hold after each grid point, in closed form.

  The correlation tile's buffer holds the point's updated tile. Each of the three running totals is a fold along a row
  of tiles: at the row's first point (the point number a multiple of 8) it is the zero tile plus the point's scaled
  total, at each later point what the point before left plus the point's scaled total. Over the extended reals the
  fold after the row's last point holds, in every slot, zero plus the sum of the row's eight scaled totals.
-/
import proofs.«116466_j87935160418590_2_alg».proof.Proof.Cases
import proofs.«116466_j87935160418590_2_alg».proof.Proof.Tile
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Acc

open Cert.KernelIdeal Cert.KernelIdeal.Gen Cert.KernelIdeal.Tile Cert.KernelIdeal.Cases

variable {F : FTy → Type} [FloatOps F]
variable (m : (ℓ : Loc nD τ sig) → Buf (Elt F) ℓ) (c : Dev nD)

/-- The updated correlation tile of point `T`: the body's select over the point's blocks of the activities (as a
    column and as a row) and of the correlation matrix. -/
def tileAt (T : Fin cfg0.N) : Vec F S1024x1024 .f32 :=
  k0_pay7 (grid0.coords T) (iblk m c 0 T) (iblk m c 1 T) (iblk m c 3 T)

/-- The three tiles whose totals the point adds: the absolute values, those times the weights, the weights. -/
def absAt (T : Fin cfg0.N) : FVec F S1024x1024 .f32 := absf (tileAt m c T)
def weightedAt (T : Fin cfg0.N) : FVec F S1024x1024 .f32 := mulf (absAt m c T) (iblk m c 2 T)
def weightAt (T : Fin cfg0.N) : FVec F S1024x1024 .f32 := iblk m c 2 T

/-- One step of a running total: a tile's total, scaled, added to every slot. -/
def step (g : FVec F S1024x1024 .f32) (acc : Vec F S8x128 .f32) : Vec F S8x128 .f32 := addScaled (tileTotal g) acc

/-- The fold along the row of tiles that starts at point `b`, after `j` further points. -/
def fold (q : Fin cfg0.N → FVec F S1024x1024 .f32) (b j : ℕ) (h : b + j < cfg0.N) : Vec F S8x128 .f32 :=
  Pipeline.accAt (fun n h => step (q ⟨n, h⟩) zeroTile) (fun n h acc => step (q ⟨n, h⟩) acc) b j h

/-- After every point the correlation tile's buffer holds the point's updated tile. -/
theorem outs_tile (T : Fin cfg0.N) : (outsAt0 m c T.val T.isLt).1 = tileAt m c T := by
  unfold tileAt
  by_cases h0 : T.val % 8 = 0
  · rw [outsAt0_A m c T h0]
    dsimp only
    exact tile_A c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) ((hcond0_0 T).mpr h0)
  · rw [outsAt0_B m c T h0]
    dsimp only
    exact tile_B c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) (fun h => h0 ((hcond0_0 T).mp h)) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2

/-- At a row's first point the three totals are one step from the zero tile. -/
theorem outs_first (T : Fin cfg0.N) (h0 : T.val % 8 = 0) :
    (outsAt0 m c T.val T.isLt).2.1 = step (absAt m c T) zeroTile
    ∧ (outsAt0 m c T.val T.isLt).2.2.1 = step (weightedAt m c T) zeroTile
    ∧ (outsAt0 m c T.val T.isLt).2.2.2 = step (weightAt m c T) zeroTile := by
  rw [outsAt0_A m c T h0]
  dsimp only
  unfold step weightedAt weightAt absAt tileAt
  refine ⟨?_, ?_, ?_⟩
  · refine (absTotal_A c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) ((hcond0_0 T).mpr h0)).trans ?_
    rw [addAbs_eq, absTotal_eq, absTile_eq, zero1_eq]
  · refine (weightedTotal_A c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) ((hcond0_0 T).mpr h0)).trans ?_
    rw [addWeighted_eq, absTile_eq, zero2_eq]
  · refine (weightTotal_A c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) ((hcond0_0 T).mpr h0)).trans ?_
    rw [addWeights_eq, zero3_eq]

/-- At a later point they are one step from what the point before left. -/
theorem outs_next (T : Fin cfg0.N) (h0 : ¬T.val % 8 = 0) :
    (outsAt0 m c T.val T.isLt).2.1 = step (absAt m c T) (outsAt0 m c (T.val - 1) (Nat.lt_of_le_of_lt (Nat.sub_le _ _) T.isLt)).2.1
    ∧ (outsAt0 m c T.val T.isLt).2.2.1 = step (weightedAt m c T) (outsAt0 m c (T.val - 1) (Nat.lt_of_le_of_lt (Nat.sub_le _ _) T.isLt)).2.2.1
    ∧ (outsAt0 m c T.val T.isLt).2.2.2 = step (weightAt m c T) (outsAt0 m c (T.val - 1) (Nat.lt_of_le_of_lt (Nat.sub_le _ _) T.isLt)).2.2.2 := by
  rw [outsAt0_B m c T h0]
  dsimp only
  unfold step weightedAt weightAt absAt tileAt
  refine ⟨?_, ?_, ?_⟩
  · refine (absTotal_B c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) (fun h => h0 ((hcond0_0 T).mp h)) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2).trans ?_
    rw [addAbs_eq, absTotal_eq, absTile_eq]
  · refine (weightedTotal_B c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) (fun h => h0 ((hcond0_0 T).mp h)) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2).trans ?_
    rw [addWeighted_eq, absTile_eq]
  · refine (weightTotal_B c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) (ms0_7 T) (hs0_7 T) (iblk m c 0 T) (iblk m c 1 T) (iblk m c 2 T) (iblk m c 3 T) (fun h => h0 ((hcond0_0 T).mp h)) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2).trans ?_
    rw [addWeights_eq]

/-- So after point `t` each total is the fold along `t`'s row of tiles, up to `t`. -/
theorem outs_abs (t : ℕ) (ht : t < cfg0.N) (h' : 8 * (t / 8) + t % 8 < cfg0.N) :
    (outsAt0 m c t ht).2.1 = fold (absAt m c) (8 * (t / 8)) (t % 8) h' :=
  Pipeline.eq_accAt_of_mod (fun n h => (outsAt0 m c n h).2.1) 8 (fun n h => step (absAt m c ⟨n, h⟩) zeroTile)
    (fun n h acc => step (absAt m c ⟨n, h⟩) acc)
    (fun n h h0 => (outs_first m c ⟨n, h⟩ h0).1)
    (fun n h h0 => (outs_next m c ⟨n + 1, h⟩ h0).1) (by decide) t ht h'

theorem outs_weighted (t : ℕ) (ht : t < cfg0.N) (h' : 8 * (t / 8) + t % 8 < cfg0.N) :
    (outsAt0 m c t ht).2.2.1 = fold (weightedAt m c) (8 * (t / 8)) (t % 8) h' :=
  Pipeline.eq_accAt_of_mod (fun n h => (outsAt0 m c n h).2.2.1) 8 (fun n h => step (weightedAt m c ⟨n, h⟩) zeroTile)
    (fun n h acc => step (weightedAt m c ⟨n, h⟩) acc)
    (fun n h h0 => (outs_first m c ⟨n, h⟩ h0).2.1)
    (fun n h h0 => (outs_next m c ⟨n + 1, h⟩ h0).2.1) (by decide) t ht h'

theorem outs_weight (t : ℕ) (ht : t < cfg0.N) (h' : 8 * (t / 8) + t % 8 < cfg0.N) :
    (outsAt0 m c t ht).2.2.2 = fold (weightAt m c) (8 * (t / 8)) (t % 8) h' :=
  Pipeline.eq_accAt_of_mod (fun n h => (outsAt0 m c n h).2.2.2) 8 (fun n h => step (weightAt m c ⟨n, h⟩) zeroTile)
    (fun n h acc => step (weightAt m c ⟨n, h⟩) acc)
    (fun n h h0 => (outs_first m c ⟨n, h⟩ h0).2.2)
    (fun n h h0 => (outs_next m c ⟨n + 1, h⟩ h0).2.2) (by decide) t ht h'

end Cert.KernelIdeal.Acc

/-! ## The folds over the extended reals -/

namespace Cert.KernelIdeal.Acc

open Cert.KernelIdeal Cert.KernelIdeal.Gen Cert.KernelIdeal.Tile

/-- The number point `n` adds to every slot of a running total: its tile's double sum times 2⁻¹⁰ (zero past the
    grid, where no point is). -/
def term (q : Fin cfg0.N → FVec Ideal S1024x1024 .f32) (n : ℕ) : EReal :=
  if h : n < cfg0.N then (∑ p : Fin 1024, ∑ r : Fin 1024, q ⟨n, h⟩ (ix2 p r)) * Ideal.ofBits .f32 0x3A800000#32 else 0

/-- A step adds the tile's double sum times 2⁻¹⁰ to the slot. -/
theorem step_apply (g : FVec Ideal S1024x1024 .f32) (acc : Vec Ideal S8x128 .f32) (y : S8x128.Idx) :
    step g acc y = acc y + (∑ p : Fin 1024, ∑ r : Fin 1024, g (ix2 p r)) * Ideal.ofBits .f32 0x3A800000#32 := by
  unfold step
  rw [addScaled_apply, tileTotal_apply]

/-- After `j` further points the fold holds, in every slot, zero plus the sum of the numbers of the points so far. -/
theorem fold_apply (q : Fin cfg0.N → FVec Ideal S1024x1024 .f32) (b j : ℕ) (h : b + j < cfg0.N)
    (y : S8x128.Idx) : fold q b j h y = 0 + ∑ s ∈ Finset.range (j + 1), term q (b + s) := by
  unfold fold
  exact Pipeline.accAt_add_apply (fun n h => step (q ⟨n, h⟩) (zeroTile (F := Ideal))) (fun n h acc => step (q ⟨n, h⟩) acc)
    (fun _ => (0 : EReal)) (fun n _ => term q n) b j
    (fun h y => by rw [step_apply, zeroTile_apply]; unfold term; rw [dif_pos h])
    (fun n h acc y _ _ => by rw [step_apply]; unfold term; rw [dif_pos h]) j (Nat.le_refl j) h y

end Cert.KernelIdeal.Acc

end
-- ==== Proof.Blocks.lean ====
/-
  The blocks a grid point reads, element by element.

  Point `t` of the 8 × 8 grid is tile (t / 8, t % 8). Element (p, q) of its block of a full matrix is the matrix's
  entry (1024 · (t / 8) + p, 1024 · (t % 8) + q); element p of its block of the activities viewed as a column is
  activity 1024 · (t / 8) + p, and element q of its block of the activities viewed as a row is activity
  1024 · (t % 8) + q (the column and the row are reshapes of the activity vector made before the region).
-/
import proofs.«116466_j87935160418590_2_alg».proof.Proof.Gen.KernelIdeal.Frame
import proofs.«116466_j87935160418590_2_alg».proof.Proof.LibLayout
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ) (c : Dev nD)

/-- The printed index maps and the grid's coordinates, decided once over the 64 points. -/
theorem idx_facts : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8)
    ∧ (win0_3.index t (0 : Fin 2) = t.val / 8 ∧ win0_3.index t (1 : Fin 2) = t.val % 8)
    ∧ (win0_4.index t (0 : Fin 2) = t.val / 8 ∧ win0_4.index t (1 : Fin 2) = t.val % 8)
    ∧ (win0_5.index t (0 : Fin 2) = t.val / 8 ∧ win0_5.index t (1 : Fin 2) = 0)
    ∧ (win0_6.index t (0 : Fin 2) = t.val / 8 ∧ win0_6.index t (1 : Fin 2) = 0)
    ∧ (win0_7.index t (0 : Fin 2) = t.val / 8 ∧ win0_7.index t (1 : Fin 2) = 0)
    ∧ ((grid0.coords t 0).val = t.val / 8 ∧ (grid0.coords t 1).val = t.val % 8) :=
  (by decide +kernel : ∀ t : Fin grid0.N, _)

/-- A tile's row (or column) offset plus a coordinate inside the tile is a row (or column) of the matrix. -/
theorem off_lt (k : ℕ) (hk : k < 8) (p : Fin 1024) : k * 1024 + p.val < 8192 := by have := p.isLt; omega

theorem row_lt (t : Fin cfg0.N) (p : Fin 1024) : t.val / 8 * 1024 + p.val < 8192 :=
  off_lt _ (by have := t.isLt; have hN : cfg0.N = 64 := N_0; omega) p
theorem col_lt (t : Fin cfg0.N) (q : Fin 1024) : t.val % 8 * 1024 + q.val < 8192 :=
  off_lt _ (Nat.mod_lt _ (by decide)) q

/-- The matrix row and column of a tile's element. -/
abbrev row (t : Fin cfg0.N) (p : Fin 1024) : Fin 8192 := ⟨t.val / 8 * 1024 + p.val, row_lt t p⟩
abbrev col (t : Fin cfg0.N) (q : Fin 1024) : Fin 8192 := ⟨t.val % 8 * 1024 + q.val, col_lt t q⟩

/-- Before the region the activities are viewed as a column … -/
theorem column_eq : (V m c main_v0 : S8192x1.Idx → Elt F .f32)
    = shapeCast S8192x1 (m ((c : Thread nD τ).loc main_arg0)) shapeCasts_S8192_S8192x1 := by
  show StableHlo.after hostOps0 (fun b => m (c, b)) (Proc.devRef .tc main_v0) = _
  after_results
  rfl

/-- … and as a row. -/
theorem rowView_eq : (V m c main_v1 : S1x8192.Idx → Elt F .f32)
    = shapeCast S1x8192 (m ((c : Thread nD τ).loc main_arg0)) shapeCasts_S8192_S1x8192 := by
  show StableHlo.after hostOps0 (fun b => m (c, b)) (Proc.devRef .tc main_v1) = _
  after_results
  rfl

/-- Element `p` of the point's block of the column is activity `row t p`. -/
theorem column_blk (t : Fin cfg0.N) (p : Fin 1024) (u : Fin 1) :
    iblk m c 0 t (ix2 p u) = m ((c : Thread nD τ).loc main_arg0) (ix1 (row t p)) := by
  obtain ⟨⟨e0, e1⟩, -⟩ := idx_facts t
  show V m c main_v0 (((cfg0.win 0).blk t).view.emb (ix2 p u)) = _
  rw [column_eq]
  refine (congrArg _ (show ((cfg0.win 0).blk t).view.emb (ix2 p u) = ix2 (row t p) (0 : Fin 1) from
    funext fun a => Fin.ext (by
      match a with
      | ⟨0, _⟩ => show win0_0.index t (0 : Fin 2) * 1024 + 1 * p.val = t.val / 8 * 1024 + p.val; rw [e0]; omega
      | ⟨1, _⟩ => show win0_0.index t (1 : Fin 2) * 1 + 1 * u.val = 0; rw [e1]; omega))).trans ?_
  exact Cert.Attn.Layout.shapeCast_a_a1_apply _ shapeCasts_S8192_S8192x1 (row t p) 0

/-- Element `q` of the point's block of the row is activity `col t q`. -/
theorem rowView_blk (t : Fin cfg0.N) (u : Fin 1) (q : Fin 1024) :
    iblk m c 1 t (ix2 u q) = m ((c : Thread nD τ).loc main_arg0) (ix1 (col t q)) := by
  obtain ⟨-, ⟨e0, e1⟩, -⟩ := idx_facts t
  show V m c main_v1 (((cfg0.win 1).blk t).view.emb (ix2 u q)) = _
  rw [rowView_eq]
  refine (congrArg _ (show ((cfg0.win 1).blk t).view.emb (ix2 u q) = ix2 (0 : Fin 1) (col t q) from
    funext fun a => Fin.ext (by
      match a with
      | ⟨0, _⟩ => show win0_1.index t (0 : Fin 2) * 1 + 1 * u.val = 0; rw [e0]; omega
      | ⟨1, _⟩ => show win0_1.index t (1 : Fin 2) * 1024 + 1 * q.val = t.val % 8 * 1024 + q.val; rw [e1]; omega))).trans ?_
  exact shapeCast_a_1a_apply _ shapeCasts_S8192_S1x8192 0 (col t q)

/-- Element (p, q) of the point's block of the weights is the weight at (`row t p`, `col t q`). -/
theorem weights_blk (t : Fin cfg0.N) (p q : Fin 1024) :
    iblk m c 2 t (ix2 p q) = m ((c : Thread nD τ).loc main_arg1) (ix2 (row t p) (col t q)) := by
  obtain ⟨-, -, ⟨e0, e1⟩, -⟩ := idx_facts t
  show V m c main_arg1 (((cfg0.win 2).blk t).view.emb (ix2 p q)) = _
  rw [V_main_arg1]
  exact congrArg _ (funext fun a => Fin.ext (by
    match a with
    | ⟨0, _⟩ => show win0_2.index t (0 : Fin 2) * 1024 + 1 * p.val = t.val / 8 * 1024 + p.val; rw [e0]; omega
    | ⟨1, _⟩ => show win0_2.index t (1 : Fin 2) * 1024 + 1 * q.val = t.val % 8 * 1024 + q.val; rw [e1]; omega))

/-- Element (p, q) of the point's block of the correlation matrix is its entry (`row t p`, `col t q`). -/
theorem corr_blk (t : Fin cfg0.N) (p q : Fin 1024) :
    iblk m c 3 t (ix2 p q) = m ((c : Thread nD τ).loc main_arg2) (ix2 (row t p) (col t q)) := by
  obtain ⟨-, -, -, ⟨e0, e1⟩, -⟩ := idx_facts t
  show V m c main_arg2 (((cfg0.win 3).blk t).view.emb (ix2 p q)) = _
  rw [V_main_arg2]
  exact congrArg _ (funext fun a => Fin.ext (by
    match a with
    | ⟨0, _⟩ => show win0_3.index t (0 : Fin 2) * 1024 + 1 * p.val = t.val / 8 * 1024 + p.val; rw [e0]; omega
    | ⟨1, _⟩ => show win0_3.index t (1 : Fin 2) * 1024 + 1 * q.val = t.val % 8 * 1024 + q.val; rw [e1]; omega))

end Cert.KernelIdeal.Blocks

end
-- ==== Proof.TileValue.lean ====
/-
  The updated correlation tile, element by element, is the reference's updated matrix at the element's entry.

  At element (p, q) of tile (i, j) the body selects, where row 1024·i + p equals column 1024·j + q, the correlation
  entry itself and elsewhere 0.9 · entry + 0.1 · (activity of the row · activity of the column); the reference does the
  same at every entry (r, k) of the whole matrix, comparing r with k. The two comparisons are of the same 32-bit
  numbers, the two literals are the same words, and the tile's blocks are the matrix's entries.
-/
import proofs.«116466_j87935160418590_2_alg».proof.Proof.Acc
import proofs.«116466_j87935160418590_2_alg».proof.Proof.Blocks
import proofs.«116466_j87935160418590_2_alg».proof.Proof.Gen.ReferenceIdeal.Read

noncomputable section

open Idealize.ShloMosaic Idealize.ShloMosaic.TcCoe Idealize.SL.Sem Idealize.ShloMosaic.ValueIdx

namespace Cert.KernelIdeal.TileValue

open Cert.KernelIdeal Cert.KernelIdeal.Gen Cert.KernelIdeal.Acc Cert.KernelIdeal.Blocks

/-- A tile's offset times 1024 plus a coordinate, computed in 32-bit words, is the word of the matrix coordinate. -/
theorem word_off (k p : ℕ) :
    IntOp.addi (Scalar.muli (BitVec.ofNat 32 k) 1024#32) (BitVec.ofNat 32 p) = BitVec.ofNat 32 (k * 1024 + p) := by
  show BitVec.ofNat 32 k * BitVec.ofNat 32 1024 + BitVec.ofNat 32 p = _
  rw [← BitVec.ofNat_mul, ← BitVec.ofNat_add]

/-- The updated tile at an element, over the extended reals. -/
theorem tile_apply (i : grid0.Coords) (v7 : Vec Ideal S1024x1 .f32) (v9 : Vec Ideal S1x1024 .f32)
    (v11 : Vec Ideal S1024x1024 .f32) (p q : Fin 1024) :
    k0_pay7 (F := Ideal) i v7 v9 v11 (ix2 p q)
      = Scalar.select (IntOp.cmpi .eq (BitVec.ofNat 32 ((i 0).val * 1024 + p.val)) (BitVec.ofNat 32 ((i 1).val * 1024 + q.val)))
          (v11 (ix2 p q))
          (Ideal.ofBits .f32 0x3F666666#32 * v11 (ix2 p q)
            + Ideal.ofBits .f32 0x3DCCCCCD#32 * (v7 (ix2 p (0 : Fin 1)) * v9 (ix2 (0 : Fin 1) q))) := by
  unfold k0_pay7
  show Scalar.select (IntOp.cmpi .eq
        (broadcastTo S1024x1024 (addi (broadcast S1024x1 (Scalar.muli (BitVec.ofNat 32 (i 0).val) 1024#32))
          (iota .tc S1024x1 32 [0] iota_S1024x1_d0_w32)) broadcasts_S1024x1_S1024x1024 (ix2 p q))
        (broadcastTo S1024x1024 (addi (broadcast S1x1024 (Scalar.muli (BitVec.ofNat 32 (i 1).val) 1024#32))
          (iota .tc S1x1024 32 [1] iota_S1x1024_d1_w32)) broadcasts_S1x1024_S1024x1024 (ix2 p q)))
      (v11 (ix2 p q))
      (Ideal.ofBits .f32 0x3F666666#32 * v11 (ix2 p q)
        + Ideal.ofBits .f32 0x3DCCCCCD#32
          * (broadcastTo S1024x1024 (shapeCast S1024x1 v7 shapeCasts_S1024x1_S1024x1) broadcasts_S1024x1_S1024x1024 (ix2 p q)
            * broadcastTo S1024x1024 (shapeCast S1x1024 v9 shapeCasts_S1x1024_S1x1024) broadcasts_S1x1024_S1024x1024 (ix2 p q))) = _
  rw [Cert.Attn.Layout.broadcastTo_a1_ab_apply, broadcastTo_1b_ab_apply, Cert.Attn.Layout.broadcastTo_a1_ab_apply,
    broadcastTo_1b_ab_apply, shapeCast_self, shapeCast_self]
  show Scalar.select (IntOp.cmpi .eq
        (IntOp.addi (Scalar.muli (BitVec.ofNat 32 (i 0).val) 1024#32) (iota .tc S1024x1 32 [0] iota_S1024x1_d0_w32 (ix2 p (0 : Fin 1))))
        (IntOp.addi (Scalar.muli (BitVec.ofNat 32 (i 1).val) 1024#32) (iota .tc S1x1024 32 [1] iota_S1x1024_d1_w32 (ix2 (0 : Fin 1) q)))) _ _ = _
  rw [iota_single_apply, iota_single_apply]
  show Scalar.select (IntOp.cmpi .eq
        (IntOp.addi (Scalar.muli (BitVec.ofNat 32 (i 0).val) 1024#32) (BitVec.ofNat 32 p.val))
        (IntOp.addi (Scalar.muli (BitVec.ofNat 32 (i 1).val) 1024#32) (BitVec.ofNat 32 q.val))) _ _ = _
  rw [word_off, word_off]

/-! ## The reference's updated matrix at an entry -/

open Cert.ReferenceIdeal.Read in
/-- The reference selects, where the row equals the column, the correlation entry and elsewhere
    0.9 · entry + 0.1 · (activity of the row · activity of the column). -/
theorem updated_apply (a : (⟨Cert.ReferenceIdeal.S8192, .f32⟩ : BufTy).Contents (Elt Ideal))
    (C0 : (⟨Cert.ReferenceIdeal.S8192x8192, .f32⟩ : BufTy).Contents (Elt Ideal)) (r k : Fin 8192) :
    val_main_v15 (F := Ideal) a C0 (ix2 r k)
      = Scalar.select (IntOp.cmpi .eq (BitVec.ofNat 32 r.val) (BitVec.ofNat 32 k.val)) (C0 (ix2 r k))
          (Ideal.ofBits .f32 0x3F666666#32 * C0 (ix2 r k) + Ideal.ofBits .f32 0x3DCCCCCD#32 * (a (ix1 r) * a (ix1 k))) := by
  rw [val_main_v15_apply, val_main_v9_apply, val_main_v8_apply, val_main_v5_apply, val_main_v7_apply, val_main_c_apply,
    val_main_v6_apply, val_main_v14_apply, val_main_v11_apply, val_main_v10_apply, val_main_cst_apply, val_main_v13_apply,
    val_main_v12_apply, val_main_cst_0_apply, val_main_v4_apply, val_main_v2_apply, val_main_v0_apply, val_main_v3_apply,
    val_main_v1_apply]
  have e0 : idx_main_v0 (idx_main_v2 (ix2 r k)) = ix1 r := funext fun d => by match d with | ⟨0, _⟩ => rfl
  have e1 : idx_main_v1 (idx_main_v3 (ix2 r k)) = ix1 k := funext fun d => by match d with | ⟨0, _⟩ => rfl
  rw [e0, e1]
  show Scalar.select (IntOp.cmpi .eq (BitVec.ofNat 32 r.val + 0#32) (BitVec.ofNat 32 k.val)) _ _ = _
  rw [BitVec.add_zero]
  rfl

/-! ## The point's tiles are the reference's matrices at the tile's entries -/

variable (m : (ℓ : Loc nD τ sig) → Buf (Elt Ideal) ℓ) (c : Dev nD)

/-- The updated tile at (p, q) is the reference's updated matrix at (`row t p`, `col t q`). -/
theorem tileAt_apply (t : Fin cfg0.N) (p q : Fin 1024) :
    tileAt m c t (ix2 p q)
      = Cert.ReferenceIdeal.Read.val_main_v15 (F := Ideal) (m ((c : Thread nD τ).loc main_arg0))
          (m ((c : Thread nD τ).loc main_arg2)) (ix2 (row t p) (col t q)) := by
  obtain ⟨-, -, -, -, -, -, -, -, g0, g1⟩ := idx_facts t
  unfold tileAt
  rw [tile_apply, updated_apply, column_blk, rowView_blk, corr_blk, g0, g1]

/-- The tile of absolute values is the reference's matrix of absolute values there. -/
theorem absAt_apply (t : Fin cfg0.N) (p q : Fin 1024) :
    absAt m c t (ix2 p q)
      = Cert.ReferenceIdeal.Read.val_main_v16 (F := Ideal) (m ((c : Thread nD τ).loc main_arg0))
          (m ((c : Thread nD τ).loc main_arg2)) (ix2 (row t p) (col t q)) := by
  rw [Cert.ReferenceIdeal.Read.val_main_v16_apply, ← tileAt_apply]
  rfl

/-- The tile of weights is the weight matrix there. -/
theorem weightAt_apply (t : Fin cfg0.N) (p q : Fin 1024) :
    weightAt m c t (ix2 p q) = m ((c : Thread nD τ).loc main_arg1) (ix2 (row t p) (col t q)) := by
  unfold weightAt
  exact weights_blk m c t p q

/-- The tile of weighted absolute values is the reference's product matrix there. -/
theorem weightedAt_apply (t : Fin cfg0.N) (p q : Fin 1024) :
    weightedAt m c t (ix2 p q)
      = Cert.ReferenceIdeal.Read.val_main_v25 (F := Ideal) (m ((c : Thread nD τ).loc main_arg0))
          (m ((c : Thread nD τ).loc main_arg1)) (m ((c : Thread nD τ).loc main_arg2)) (ix2 (row t p) (col t q)) := by
  rw [Cert.ReferenceIdeal.Read.val_main_v25_apply, ← absAt_apply, ← weights_blk m c t p q]
  rfl

end Cert.KernelIdeal.TileValue

end
-- ==== Proof.Arrays.lean ====
/-
  From blocks to arrays: what the four result arrays of the region hold when it ends.

  Every point writes its updated tile back, and the 64 tiles cover the correlation matrix, so that array ends at the
  updated matrix — the same function of the arguments the reference computes. Each running total is written back after
  the last point of its row of tiles, into rows 8i … 8i + 7 of a 64 × 128 array; the eight row blocks cover that array,
  so it ends holding, in every slot of row block i, zero plus the eight scaled tile totals of tile row i.
-/
import proofs.«116466_j87935160418590_2_alg».proof.Proof.TileValue

noncomputable section

open Idealize.ShloMosaic Idealize.ShloMosaic.TcCoe Idealize.SL.Sem Idealize.ShloMosaic.ValueIdx
open Idealize.ShloMosaic.Pipeline (Dat)
open scoped BigOperators

namespace Cert.KernelIdeal.Arrays

open Cert.KernelIdeal Cert.KernelIdeal.Gen Cert.KernelIdeal.Acc Cert.KernelIdeal.Blocks Cert.KernelIdeal.TileValue

variable (m : (ℓ : Loc nD τ sig) → Buf (Elt Ideal) ℓ) (c : Dev nD)

/-- The updated correlation matrix: the reference's function of the activities and the correlation matrix. -/
abbrev updated : Buf (Elt Ideal) ((c : Thread nD τ).loc main_v2_0) :=
  Cert.ReferenceIdeal.Read.val_main_v15 (F := Ideal) (m ((c : Thread nD τ).loc main_arg0)) (m ((c : Thread nD τ).loc main_arg2))

/-- A running total's array: every slot of row block `r / 8` holds zero plus that tile row's eight numbers. -/
def slots (q : Fin cfg0.N → FVec Ideal S1024x1024 .f32) : S64x128.Idx → EReal :=
  fun i => 0 + ∑ s ∈ Finset.range 8, term q (8 * ((i 0).val / 8) + s)

/-- What point `t` writes back of the correlation result is its block of the updated matrix. -/
theorem flushed_tile (t : Fin cfg0.N) (hf : (cfg0.win 4).flush t = true) :
    (dats m 0 c).flushed 4 t = ((cfg0.win 4).blk t).view.read (Elt Ideal) (updated m c) := by
  obtain ⟨-, -, -, -, ⟨e0, e1⟩, -⟩ := idx_facts t
  show (cfg0.win 4).cut (grid0.coords t) ((dats m 0 c).after 4 t) = _
  rw [after0_4, outs_tile]
  funext y
  show tileAt m c t y = updated m c (((cfg0.win 4).blk t).view.emb y)
  obtain ⟨p, q, rfl⟩ : ∃ (p q : Fin 1024), y = ix2 p q := ⟨y 0, y 1, eq_ix2 y⟩
  rw [tileAt_apply]
  exact congrArg _ (funext fun a => Fin.ext (by
    match a with
    | ⟨0, _⟩ => show t.val / 8 * 1024 + p.val = win0_4.index t (0 : Fin 2) * 1024 + 1 * p.val; rw [e0]; omega
    | ⟨1, _⟩ => show t.val % 8 * 1024 + q.val = win0_4.index t (1 : Fin 2) * 1024 + 1 * q.val; rw [e1]; omega))

/-- Every entry of the matrix lies in the block of the point of its tile. -/
theorem cover_tile (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  have hN : cfg0.N = 64 := N_0
  have hlt : 8 * ((i 0).val / 1024) + (i 1).val / 1024 < cfg0.N := by omega
  obtain ⟨t, ht⟩ : ∃ t : Fin cfg0.N, t.val = 8 * ((i 0).val / 1024) + (i 1).val / 1024 := ⟨⟨_, hlt⟩, rfl⟩
  obtain ⟨-, -, -, -, ⟨e0, e1⟩, -⟩ := idx_facts t
  refine ⟨t, flush0_4 t, ?_⟩
  show i ∈ ((View.whole main_v2_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- So the correlation result ends at the updated matrix. -/
theorem final_tile : (dats m 0 c).arrAt 4 cfg0.N = updated m c :=
  (dats m 0 c).arrAt_eq_of_cover 4 (updated m c) (flushed_tile m c) (cover_tile)

/-- What a row's last point writes back of the abs total is its block of `slots (absAt m c)`. -/
theorem flushed_abs (t : Fin cfg0.N) (hf : (cfg0.win 5).flush t = true) :
    (dats m 0 c).flushed 5 t = ((cfg0.win 5).blk t).view.read (Elt Ideal) (slots (absAt m c)) := by
  have h7 : t.val % 8 = 7 := (flush0_5 t).mp hf
  have hN : cfg0.N = 64 := N_0
  have h' : 8 * (t.val / 8) + t.val % 8 < cfg0.N := by have := t.isLt; omega
  have e0 : win0_5.index t (0 : Fin 2) = t.val / 8 := (idx_facts t).2.2.2.2.2.1.1
  show (cfg0.win 5).cut (grid0.coords t) ((dats m 0 c).after 5 t) = _
  rw [after0_5, outs_abs m c t.val t.isLt h']
  funext y
  show fold (absAt m c) (8 * (t.val / 8)) (t.val % 8) h' y = slots (absAt m c) (((cfg0.win 5).blk t).view.emb y)
  rw [fold_apply, h7]
  unfold slots
  have hr : ((((cfg0.win 5).blk t).view.emb y) 0).val / 8 = t.val / 8 := by
    show (win0_5.index t (0 : Fin 2) * 8 + 1 * (y 0).val) / 8 = t.val / 8
    have hy : (y 0).val < 8 := (y 0).isLt
    rw [e0]; omega
  rw [hr]

/-- Every slot of the abs total's array lies in the block its row block's last point writes back. -/
theorem cover_abs (i : S64x128.Idx) :
    ∃ t : Fin cfg0.N, (cfg0.win 5).flush t = true ∧ i ∈ ((cfg0.win 5).blk t).view.set := by
  have h0 : (i 0).val < 64 := (i 0).isLt
  have h1 : (i 1).val < 128 := (i 1).isLt
  have hN : cfg0.N = 64 := N_0
  have hlt : 8 * ((i 0).val / 8) + 7 < cfg0.N := by omega
  obtain ⟨t, ht⟩ : ∃ t : Fin cfg0.N, t.val = 8 * ((i 0).val / 8) + 7 := ⟨⟨_, hlt⟩, rfl⟩
  have e0 : win0_5.index t (0 : Fin 2) = t.val / 8 := (idx_facts t).2.2.2.2.2.1.1
  have e1 : win0_5.index t (1 : Fin 2) = 0 := (idx_facts t).2.2.2.2.2.1.2
  refine ⟨t, (flush0_5 t).mpr (by omega), ?_⟩
  show i ∈ ((View.whole main_v2_1).slice (win0_5.rect t)).set
  rw [View.set_slice_whole, Rect.mem_set_unit]
  intro a
  match a with
  | ⟨0, _⟩ =>
    show win0_5.index t (0 : Fin 2) * 8 ≤ (i 0).val ∧ (i 0).val < win0_5.index t (0 : Fin 2) * 8 + 8
    rw [e0]; omega
  | ⟨1, _⟩ =>
    show win0_5.index t (1 : Fin 2) * 128 ≤ (i 1).val ∧ (i 1).val < win0_5.index t (1 : Fin 2) * 128 + 128
    rw [e1]; omega

/-- So the abs total's array ends at `slots (absAt m c)`. -/
theorem final_abs : (dats m 0 c).arrAt 5 cfg0.N = slots (absAt m c) :=
  (dats m 0 c).arrAt_eq_of_cover 5 (slots (absAt m c)) (flushed_abs m c) (cover_abs)

/-- What a row's last point writes back of the weighted total is its block of `slots (weightedAt m c)`. -/
theorem flushed_weighted (t : Fin cfg0.N) (hf : (cfg0.win 6).flush t = true) :
    (dats m 0 c).flushed 6 t = ((cfg0.win 6).blk t).view.read (Elt Ideal) (slots (weightedAt m c)) := by
  have h7 : t.val % 8 = 7 := (flush0_6 t).mp hf
  have hN : cfg0.N = 64 := N_0
  have h' : 8 * (t.val / 8) + t.val % 8 < cfg0.N := by have := t.isLt; omega
  have e0 : win0_6.index t (0 : Fin 2) = t.val / 8 := (idx_facts t).2.2.2.2.2.2.1.1
  show (cfg0.win 6).cut (grid0.coords t) ((dats m 0 c).after 6 t) = _
  rw [after0_6, outs_weighted m c t.val t.isLt h']
  funext y
  show fold (weightedAt m c) (8 * (t.val / 8)) (t.val % 8) h' y = slots (weightedAt m c) (((cfg0.win 6).blk t).view.emb y)
  rw [fold_apply, h7]
  unfold slots
  have hr : ((((cfg0.win 6).blk t).view.emb y) 0).val / 8 = t.val / 8 := by
    show (win0_6.index t (0 : Fin 2) * 8 + 1 * (y 0).val) / 8 = t.val / 8
    have hy : (y 0).val < 8 := (y 0).isLt
    rw [e0]; omega
  rw [hr]

/-- Every slot of the weighted total's array lies in the block its row block's last point writes back. -/
theorem cover_weighted (i : S64x128.Idx) :
    ∃ t : Fin cfg0.N, (cfg0.win 6).flush t = true ∧ i ∈ ((cfg0.win 6).blk t).view.set := by
  have h0 : (i 0).val < 64 := (i 0).isLt
  have h1 : (i 1).val < 128 := (i 1).isLt
  have hN : cfg0.N = 64 := N_0
  have hlt : 8 * ((i 0).val / 8) + 7 < cfg0.N := by omega
  obtain ⟨t, ht⟩ : ∃ t : Fin cfg0.N, t.val = 8 * ((i 0).val / 8) + 7 := ⟨⟨_, hlt⟩, rfl⟩
  have e0 : win0_6.index t (0 : Fin 2) = t.val / 8 := (idx_facts t).2.2.2.2.2.2.1.1
  have e1 : win0_6.index t (1 : Fin 2) = 0 := (idx_facts t).2.2.2.2.2.2.1.2
  refine ⟨t, (flush0_6 t).mpr (by omega), ?_⟩
  show i ∈ ((View.whole main_v2_2).slice (win0_6.rect t)).set
  rw [View.set_slice_whole, Rect.mem_set_unit]
  intro a
  match a with
  | ⟨0, _⟩ =>
    show win0_6.index t (0 : Fin 2) * 8 ≤ (i 0).val ∧ (i 0).val < win0_6.index t (0 : Fin 2) * 8 + 8
    rw [e0]; omega
  | ⟨1, _⟩ =>
    show win0_6.index t (1 : Fin 2) * 128 ≤ (i 1).val ∧ (i 1).val < win0_6.index t (1 : Fin 2) * 128 + 128
    rw [e1]; omega

/-- So the weighted total's array ends at `slots (weightedAt m c)`. -/
theorem final_weighted : (dats m 0 c).arrAt 6 cfg0.N = slots (weightedAt m c) :=
  (dats m 0 c).arrAt_eq_of_cover 6 (slots (weightedAt m c)) (flushed_weighted m c) (cover_weighted)

/-- What a row's last point writes back of the weight total is its block of `slots (weightAt m c)`. -/
theorem flushed_weight (t : Fin cfg0.N) (hf : (cfg0.win 7).flush t = true) :
    (dats m 0 c).flushed 7 t = ((cfg0.win 7).blk t).view.read (Elt Ideal) (slots (weightAt m c)) := by
  have h7 : t.val % 8 = 7 := (flush0_7 t).mp hf
  have hN : cfg0.N = 64 := N_0
  have h' : 8 * (t.val / 8) + t.val % 8 < cfg0.N := by have := t.isLt; omega
  have e0 : win0_7.index t (0 : Fin 2) = t.val / 8 := (idx_facts t).2.2.2.2.2.2.2.1.1
  show (cfg0.win 7).cut (grid0.coords t) ((dats m 0 c).after 7 t) = _
  rw [after0_7, outs_weight m c t.val t.isLt h']
  funext y
  show fold (weightAt m c) (8 * (t.val / 8)) (t.val % 8) h' y = slots (weightAt m c) (((cfg0.win 7).blk t).view.emb y)
  rw [fold_apply, h7]
  unfold slots
  have hr : ((((cfg0.win 7).blk t).view.emb y) 0).val / 8 = t.val / 8 := by
    show (win0_7.index t (0 : Fin 2) * 8 + 1 * (y 0).val) / 8 = t.val / 8
    have hy : (y 0).val < 8 := (y 0).isLt
    rw [e0]; omega
  rw [hr]

/-- Every slot of the weight total's array lies in the block its row block's last point writes back. -/
theorem cover_weight (i : S64x128.Idx) :
    ∃ t : Fin cfg0.N, (cfg0.win 7).flush t = true ∧ i ∈ ((cfg0.win 7).blk t).view.set := by
  have h0 : (i 0).val < 64 := (i 0).isLt
  have h1 : (i 1).val < 128 := (i 1).isLt
  have hN : cfg0.N = 64 := N_0
  have hlt : 8 * ((i 0).val / 8) + 7 < cfg0.N := by omega
  obtain ⟨t, ht⟩ : ∃ t : Fin cfg0.N, t.val = 8 * ((i 0).val / 8) + 7 := ⟨⟨_, hlt⟩, rfl⟩
  have e0 : win0_7.index t (0 : Fin 2) = t.val / 8 := (idx_facts t).2.2.2.2.2.2.2.1.1
  have e1 : win0_7.index t (1 : Fin 2) = 0 := (idx_facts t).2.2.2.2.2.2.2.1.2
  refine ⟨t, (flush0_7 t).mpr (by omega), ?_⟩
  show i ∈ ((View.whole main_v2_3).slice (win0_7.rect t)).set
  rw [View.set_slice_whole, Rect.mem_set_unit]
  intro a
  match a with
  | ⟨0, _⟩ =>
    show win0_7.index t (0 : Fin 2) * 8 ≤ (i 0).val ∧ (i 0).val < win0_7.index t (0 : Fin 2) * 8 + 8
    rw [e0]; omega
  | ⟨1, _⟩ =>
    show win0_7.index t (1 : Fin 2) * 128 ≤ (i 1).val ∧ (i 1).val < win0_7.index t (1 : Fin 2) * 128 + 128
    rw [e1]; omega

/-- So the weight total's array ends at `slots (weightAt m c)`. -/
theorem final_weight : (dats m 0 c).arrAt 7 cfg0.N = slots (weightAt m c) :=
  (dats m 0 c).arrAt_eq_of_cover 7 (slots (weightAt m c)) (flushed_weight m c) (cover_weight)

end Cert.KernelIdeal.Arrays

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.SumLaws.lean ====
/-
  The arithmetic that joins a total kept as 1024 equal slots to the total itself, over the extended reals.

  Each tile's sum is multiplied by 2⁻¹⁰ and added to every one of the 8 × 128 = 1024 slots of a running total; the
  slots of all eight row blocks are summed at the end. Since 1024 copies of x · 2⁻¹⁰ add up to x for EVERY extended
  real x (the infinities included: a positive factor keeps them, and a sum of equal infinities is that infinity), and
  sums of extended reals may be regrouped and reordered freely, the grand total of the slots is the sum of the tile
  sums, and the tile sums add up to the sum over the whole matrix. No finiteness is used.
-/
import Mathlib.Data.EReal.Operations
import Mathlib.Algebra.BigOperators.Fin
import proofs.«116466_j87935160418590_2_alg».proof.Proof.LibBlockedSums

open scoped BigOperators

namespace Cert.Synchrony.Sums

/-- 1024 copies of `x · 2⁻¹⁰` add up to `x`, for every extended real `x`. -/
theorem nsmul_scaled (x : EReal) : (1024 : ℕ) • (x * ((1 / 1024 : ℝ) : EReal)) = x := by
  have hpos : (0 : ℝ) < 1 / 1024 := by norm_num
  have hN : (0 : ℝ) < ((1024 : ℕ) : ℝ) := by norm_num
  induction x using EReal.rec with
  | bot =>
    rw [EReal.bot_mul_coe_of_pos hpos, EReal.nsmul_eq_mul]
    exact EReal.coe_mul_bot_of_pos hN
  | coe r =>
    rw [← EReal.coe_mul, ← EReal.coe_nsmul]
    congr 1
    rw [nsmul_eq_mul]
    push_cast
    ring
  | top =>
    rw [EReal.top_mul_coe_of_pos hpos, EReal.nsmul_eq_mul]
    exact EReal.coe_mul_top_of_pos hN

/-- The 64 × 128 slots, each holding its row block's eight scaled tile sums added up from zero, total the 64 tile
    sums: row `r` belongs to block `r / 8`, a block has 8 × 128 = 1024 slots, and 1024 scaled copies restore a sum. -/
theorem sum_slots (T : ℕ → EReal) :
    ∑ r : Fin 64, ∑ _l : Fin 128,
        ((0 : EReal) + ∑ s ∈ Finset.range 8, T (8 * (r.val / 8) + s) * ((1 / 1024 : ℝ) : EReal))
      = ∑ i : Fin 8, ∑ j : Fin 8, T (8 * i.val + j.val) := by
  have hrow : ∀ r : Fin 64, (∑ _l : Fin 128,
        ((0 : EReal) + ∑ s ∈ Finset.range 8, T (8 * (r.val / 8) + s) * ((1 / 1024 : ℝ) : EReal)))
      = 128 • ∑ s ∈ Finset.range 8, T (8 * (r.val / 8) + s) * ((1 / 1024 : ℝ) : EReal) := fun r => by
    rw [Finset.sum_const, Finset.card_univ, Fintype.card_fin, zero_add]
  rw [Finset.sum_congr rfl fun r _ => hrow r]
  rw [BlockedSums.sum_blocks 8 8
    (fun r : Fin (8 * 8) => 128 • ∑ s ∈ Finset.range 8, T (8 * (r.val / 8) + s) * ((1 / 1024 : ℝ) : EReal))]
  refine Finset.sum_congr rfl fun i _ => ?_
  have hdiv : ∀ b : Fin 8, (i.val * 8 + b.val) / 8 = i.val := fun b => by have := b.isLt; omega
  have hblk : ∀ b : Fin 8, (128 • ∑ s ∈ Finset.range 8, T (8 * ((i.val * 8 + b.val) / 8) + s) * ((1 / 1024 : ℝ) : EReal))
      = 128 • ∑ s ∈ Finset.range 8, T (8 * i.val + s) * ((1 / 1024 : ℝ) : EReal) := fun b => by rw [hdiv b]
  rw [Finset.sum_congr rfl fun b _ => hblk b, Finset.sum_const, Finset.card_univ, Fintype.card_fin, smul_smul]
  show (1024 : ℕ) • _ = _
  rw [← Finset.sum_nsmul, Finset.sum_range]
  exact Finset.sum_congr rfl fun j _ => nsmul_scaled _

/-- The sums over the 8 × 8 tiles of a matrix of 8192 × 8192 terms, each tile 1024 × 1024, add up to the sum over
    the whole matrix: its rows, and then its columns, are gathered block by block. -/
theorem sum_tiles {M : Type*} [AddCommMonoid M] (f : Fin 8192 → Fin 8192 → M) :
    ∑ i : Fin 8, ∑ j : Fin 8, ∑ p : Fin 1024, ∑ q : Fin 1024,
        f ⟨i.val * 1024 + p.val, BlockedSums.idx_lt i p⟩ ⟨j.val * 1024 + q.val, BlockedSums.idx_lt j q⟩
      = ∑ a : Fin 8192, ∑ b : Fin 8192, f a b := by
  rw [BlockedSums.sum_blocks 8 1024 (fun a : Fin (8 * 1024) => ∑ b : Fin 8192, f a b)]
  refine Finset.sum_congr rfl fun i _ => ?_
  rw [Finset.sum_comm]
  refine Finset.sum_congr rfl fun p _ => ?_
  exact (BlockedSums.sum_blocks 8 1024 (fun b : Fin (8 * 1024) => f ⟨i.val * 1024 + p.val, BlockedSums.idx_lt i p⟩ b)).symm

end Cert.Synchrony.Sums
-- ==== Proof.Consts.lean ====
/-
  The one float literal whose value the proof uses: the word 0x3A800000 denotes 2⁻¹⁰ = 1/1024 exactly (the scale
  each tile total is multiplied by before it is spread over the 1024 slots of a running total).
-/
import Idealize.ShloMosaic.PureOps.Ideal

noncomputable section

namespace Cert.Synchrony.Consts

open Idealize.ShloMosaic

theorem ofBits_scale : Ideal.ofBits .f32 0x3A800000#32 = ((1 / 1024 : ℝ) : EReal) := by
  simp [Ideal.ofBits, Ideal.ieee, -EReal.coe_mul]; norm_num

end Cert.Synchrony.Consts

end
-- ==== Proof.Totals.lean ====
/-
  The three sums agree.

  The host adds up the 64 × 128 slots of each running total; the reference adds up a whole 8192 × 8192 matrix. A slot
  of row block i holds zero plus the eight scaled totals of tile row i, a tile's total is the double sum of the
  reference's matrix over the tile's entries, 1024 scaled copies restore a total, and the 64 tiles partition the
  matrix: so the two sums are the same extended real, whatever the entries are.
-/
import proofs.«116466_j87935160418590_2_alg».proof.Proof.Arrays
import proofs.«116466_j87935160418590_2_alg».proof.Proof.SumLaws
import proofs.«116466_j87935160418590_2_alg».proof.Proof.Consts

noncomputable section

open Idealize.ShloMosaic Idealize.ShloMosaic.TcCoe Idealize.SL.Sem Idealize.ShloMosaic.ValueIdx
open scoped BigOperators

namespace Cert.KernelIdeal.Totals

open Cert.KernelIdeal Cert.KernelIdeal.Gen Cert.KernelIdeal.Acc Cert.KernelIdeal.Blocks Cert.KernelIdeal.TileValue
  Cert.KernelIdeal.Arrays

/-- The host's sum of a 64 × 128 array of slots, from zero. -/
def slotSum {F : FTy → Type} [FloatOps F] (P : (⟨S64x128, .f32⟩ : BufTy).Contents (Elt F)) :
    (⟨S_, .f32⟩ : BufTy).Contents (Elt F) :=
  Host.reduceAdd (F := F) P (constant (F := F) S_ .f32 0x00000000#32) reducesTo_S64x128_S_d0_1 h_S_

/-- Over the extended reals it is the zero word plus the sum of every slot. -/
theorem slotSum_apply (P : (⟨S64x128, .f32⟩ : BufTy).Contents (Elt Ideal)) (i : S_.Idx) :
    slotSum (F := Ideal) P i = Ideal.ofBits .f32 0x00000000#32 + ∑ j : S64x128.Idx, P j := by
  unfold slotSum
  simp only [Host.reduceAdd, Ideal.hostReduceAdd_def]
  exact Ideal.hostReduceAdd_total reducesTo_S64x128_S_d0_1 (fun b => b.elim0) P _ i

/-- The double sum of point `n`'s tile (zero past the grid). -/
def tileSum (q : Fin cfg0.N → FVec Ideal S1024x1024 .f32) (n : ℕ) : EReal :=
  if h : n < cfg0.N then ∑ p : Fin 1024, ∑ r : Fin 1024, q ⟨n, h⟩ (ix2 p r) else 0

/-- The number a point adds to a slot is its tile's double sum times 1/1024. -/
theorem term_eq (q : Fin cfg0.N → FVec Ideal S1024x1024 .f32) (n : ℕ) :
    term q n = tileSum q n * ((1 / 1024 : ℝ) : EReal) := by
  unfold term tileSum
  split
  · rw [Cert.Synchrony.Consts.ofBits_scale]
  · rw [zero_mul]

/-- The slots of a running total whose tiles are the tiles of a matrix `X` add up to the sum of `X`. -/
theorem slots_sum (q : Fin cfg0.N → FVec Ideal S1024x1024 .f32) (X : S8192x8192.Idx → EReal)
    (hq : ∀ (t : Fin cfg0.N) (p r : Fin 1024), q t (ix2 p r) = X (ix2 (row t p) (col t r))) :
    ∑ j : S64x128.Idx, slots q j = ∑ j : S8192x8192.Idx, X j := by
  rw [sum_idx2, sum_idx2]
  have h1 : ∀ (r : Fin 64) (l : Fin 128), slots q (ix2 r l)
      = 0 + ∑ s ∈ Finset.range 8, tileSum q (8 * (r.val / 8) + s) * ((1 / 1024 : ℝ) : EReal) := fun r l => by
    unfold slots
    show 0 + ∑ s ∈ Finset.range 8, term q (8 * (r.val / 8) + s) = _
    simp only [term_eq]
  rw [Finset.sum_congr rfl fun r _ => Finset.sum_congr rfl fun l _ => h1 r l]
  rw [Cert.Synchrony.Sums.sum_slots (tileSum q)]
  rw [← Cert.Synchrony.Sums.sum_tiles (fun a b => X (ix2 a b))]
  refine Finset.sum_congr rfl fun i _ => Finset.sum_congr rfl fun j _ => ?_
  have hN : cfg0.N = 64 := N_0
  have hi := i.isLt
  have hj := j.isLt
  have hlt : 8 * i.val + j.val < cfg0.N := by omega
  unfold tileSum
  rw [dif_pos hlt]
  refine Finset.sum_congr rfl fun p _ => Finset.sum_congr rfl fun r _ => ?_
  have hr : row ⟨8 * i.val + j.val, hlt⟩ p = ⟨i.val * 1024 + p.val, BlockedSums.idx_lt i p⟩ :=
    Fin.ext (by show (8 * i.val + j.val) / 8 * 1024 + p.val = i.val * 1024 + p.val; omega)
  have hc : col ⟨8 * i.val + j.val, hlt⟩ r = ⟨j.val * 1024 + r.val, BlockedSums.idx_lt j r⟩ :=
    Fin.ext (by show (8 * i.val + j.val) % 8 * 1024 + r.val = j.val * 1024 + r.val; omega)
  rw [hq, hr, hc]

variable (m : (ℓ : Loc nD τ sig) → Buf (Elt Ideal) ℓ) (c : Dev nD)

open Cert.ReferenceIdeal.Read in
/-- The slots of the first total add up to the reference's sum of absolute values. -/
theorem abs_total : slotSum (slots (absAt m c))
    = val_main_v17 (F := Ideal) (m ((c : Thread nD τ).loc main_arg0)) (m ((c : Thread nD τ).loc main_arg2)) := by
  funext i
  rw [slotSum_apply, val_main_v17_apply, val_main_cst_1_apply,
    slots_sum (absAt m c) (val_main_v16 (F := Ideal) (m ((c : Thread nD τ).loc main_arg0)) (m ((c : Thread nD τ).loc main_arg2)))
      (fun t p r => absAt_apply m c t p r)]
  rfl

open Cert.ReferenceIdeal.Read in
/-- The slots of the second total add up to the reference's sum of weighted absolute values. -/
theorem weighted_total : slotSum (slots (weightedAt m c))
    = val_main_v26 (F := Ideal) (m ((c : Thread nD τ).loc main_arg0)) (m ((c : Thread nD τ).loc main_arg1))
        (m ((c : Thread nD τ).loc main_arg2)) := by
  funext i
  rw [slotSum_apply, val_main_v26_apply, val_main_cst_6_apply,
    slots_sum (weightedAt m c) (val_main_v25 (F := Ideal) (m ((c : Thread nD τ).loc main_arg0))
      (m ((c : Thread nD τ).loc main_arg1)) (m ((c : Thread nD τ).loc main_arg2)))
      (fun t p r => weightedAt_apply m c t p r)]
  rfl

open Cert.ReferenceIdeal.Read in
/-- The slots of the third total add up to the reference's sum of the weights. -/
theorem weight_total : slotSum (slots (weightAt m c))
    = val_main_v24 (F := Ideal) (m ((c : Thread nD τ).loc main_arg1)) := by
  funext i
  rw [slotSum_apply, val_main_v24_apply, val_main_cst_5_apply,
    slots_sum (weightAt m c) (m ((c : Thread nD τ).loc main_arg1)) (fun t p r => weightAt_apply m c t p r)]
  rfl

end Cert.KernelIdeal.Totals

end
-- ==== Proof.Tail.lean ====
/-
  The host lines after the region, read as three functions of three sums.

  After the region both programs finish the same way: from the sum of the absolute values, the sum of the weighted
  absolute values and the sum of the weights they form the coherence 0.9 · c + 0.1 · (s / (8192 · 8191)), the integration
  measure (0.9 · g + 0.1 · (sw / w) where w > 0, else g) and the synchrony s / 8192². These lines are named here once
  and never opened: the two programs differ only in how the three sums are formed. The kernel's program forms them by
  adding up the slots of the region's three small result arrays.
-/
import proofs.«116466_j87935160418590_2_alg».proof.Proof.Totals
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Totals

variable {F : FTy → Type} [FloatOps F]

/-- The coherence from the sum of absolute values `s` and the previous coherence `x`. -/
def coherence (s : (⟨S_, .f32⟩ : BufTy).Contents (Elt F)) (x : (⟨S1, .f32⟩ : BufTy).Contents (Elt F)) :
    (⟨S1, .f32⟩ : BufTy).Contents (Elt F) :=
  addf (mulf (broadcastInDim S1 ![] bcast_S_S1 (constant (F := F) S_ .f32 0x3F666666#32)) x)
    (broadcastInDim S1 ![] bcast_S_S1 (mulf (constant (F := F) S_ .f32 0x3DCCCCCD#32)
      (Host.divf (F := F) s (constant (F := F) S_ .f32 0x4C7FF800#32))))

/-- The integration measure from the weighted sum `sw`, the sum of weights `w` and the previous measure `x`. -/
def integration (sw w : (⟨S_, .f32⟩ : BufTy).Contents (Elt F)) (x : (⟨S1, .f32⟩ : BufTy).Contents (Elt F)) :
    (⟨S1, .f32⟩ : BufTy).Contents (Elt F) :=
  select (broadcastInDim S1 ![] bcast_S_S1 (cmpf .ogt w (constant (F := F) S_ .f32 0x00000000#32)))
    (addf (mulf (broadcastInDim S1 ![] bcast_S_S1 (constant (F := F) S_ .f32 0x3F666666#32)) x)
      (broadcastInDim S1 ![] bcast_S_S1 (mulf (constant (F := F) S_ .f32 0x3DCCCCCD#32) (Host.divf (F := F) sw w))))
    x

/-- The synchrony from the sum of absolute values. -/
def synchrony (s : (⟨S_, .f32⟩ : BufTy).Contents (Elt F)) : (⟨S_, .f32⟩ : BufTy).Contents (Elt F) :=
  Host.divf (F := F) s (constant (F := F) S_ .f32 0x4C800000#32)

variable (m : (ℓ : Loc nD τ sig) → Buf (Elt F) ℓ) (c : Dev nD)

/-- After the region the three small result arrays hold what the region left … -/
theorem arr5 : Pipeline.withArrays (cfgs 0).spec c (V0 m c) (fun w => (dats m 0 c).arrAt w (cfgs 0).N) (Proc.devRef .tc main_v2_1) = (dats m 0 c).arrAt 5 cfg0.N :=
  Pipeline.withArrays_arr spec0 launch0.win.arr_inj c _ _ 5
theorem arr6 : Pipeline.withArrays (cfgs 0).spec c (V0 m c) (fun w => (dats m 0 c).arrAt w (cfgs 0).N) (Proc.devRef .tc main_v2_2) = (dats m 0 c).arrAt 6 cfg0.N :=
  Pipeline.withArrays_arr spec0 launch0.win.arr_inj c _ _ 6
theorem arr7 : Pipeline.withArrays (cfgs 0).spec c (V0 m c) (fun w => (dats m 0 c).arrAt w (cfgs 0).N) (Proc.devRef .tc main_v2_3) = (dats m 0 c).arrAt 7 cfg0.N :=
  Pipeline.withArrays_arr spec0 launch0.win.arr_inj c _ _ 7

/-- … and the two one-entry arguments are as launched. -/
theorem kept3 : Pipeline.withArrays (cfgs 0).spec c (V0 m c) (fun w => (dats m 0 c).arrAt w (cfgs 0).N) (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)
theorem kept4 : Pipeline.withArrays (cfgs 0).spec c (V0 m c) (fun w => (dats m 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The program's second result is the coherence of the first total's slot sum. -/
theorem tail_coherence :
    Pipeline.afterTail₀ cfgs (dats m) 0 (V0 m) [hostOps1, hostOps1_1, hostOps1_2] c main_v11
      = coherence (slotSum ((dats m 0 c).arrAt 5 cfg0.N)) (m ((c : Thread nD τ).loc main_arg3)) := by
  unfold Pipeline.afterTail₀
  simp only [hostOps1, hostOps1_1, hostOps1_2, List.flatten_cons, List.flatten_nil, List.append_nil, List.cons_append,
    List.nil_append]
  after_results
  rw [arr5 m c, kept3 m c]
  rfl

set_option maxHeartbeats 1000000 in
/-- Its third result is the integration measure of the second and third totals' slot sums. -/
theorem tail_integration :
    Pipeline.afterTail₀ cfgs (dats m) 0 (V0 m) [hostOps1, hostOps1_1, hostOps1_2] c main_v19
      = integration (slotSum ((dats m 0 c).arrAt 6 cfg0.N)) (slotSum ((dats m 0 c).arrAt 7 cfg0.N))
          (m ((c : Thread nD τ).loc main_arg4)) := by
  unfold Pipeline.afterTail₀
  simp only [hostOps1, hostOps1_1, hostOps1_2, List.flatten_cons, List.flatten_nil, List.append_nil, List.cons_append,
    List.nil_append]
  after_results_simp
  rw [arr6 m c, arr7 m c, kept4 m c]
  rfl

/-- Its fourth result is the synchrony of the first total's slot sum. -/
theorem tail_synchrony :
    Pipeline.afterTail₀ cfgs (dats m) 0 (V0 m) [hostOps1, hostOps1_1, hostOps1_2] c main_v20
      = synchrony (slotSum ((dats m 0 c).arrAt 5 cfg0.N)) := by
  unfold Pipeline.afterTail₀
  simp only [hostOps1, hostOps1_1, hostOps1_2, List.flatten_cons, List.flatten_nil, List.append_nil, List.cons_append,
    List.nil_append]
  after_results
  rw [arr5 m c]
  rfl

/-! ## The reference's last lines are the same three functions -/

open Cert.ReferenceIdeal.Read in
theorem ref_coherence (a : (⟨Cert.ReferenceIdeal.S8192, .f32⟩ : BufTy).Contents (Elt F))
    (C0 : (⟨Cert.ReferenceIdeal.S8192x8192, .f32⟩ : BufTy).Contents (Elt F))
    (x : (⟨Cert.ReferenceIdeal.S1, .f32⟩ : BufTy).Contents (Elt F)) :
    val_main_v23 (F := F) a C0 x = coherence (val_main_v17 (F := F) a C0) x := rfl

open Cert.ReferenceIdeal.Read in
theorem ref_integration (a : (⟨Cert.ReferenceIdeal.S8192, .f32⟩ : BufTy).Contents (Elt F))
    (W C0 : (⟨Cert.ReferenceIdeal.S8192x8192, .f32⟩ : BufTy).Contents (Elt F))
    (x : (⟨Cert.ReferenceIdeal.S1, .f32⟩ : BufTy).Contents (Elt F)) :
    val_main_v34 (F := F) a W C0 x = integration (val_main_v26 (F := F) a W C0) (val_main_v24 (F := F) W) x := rfl

open Cert.ReferenceIdeal.Read in
theorem ref_synchrony (a : (⟨Cert.ReferenceIdeal.S8192, .f32⟩ : BufTy).Contents (Elt F))
    (C0 : (⟨Cert.ReferenceIdeal.S8192x8192, .f32⟩ : BufTy).Contents (Elt F)) :
    val_main_v36 (F := F) a C0 = synchrony (val_main_v35 (F := F) a C0) := rfl

open Cert.ReferenceIdeal.Read in
/-- The reference sums the matrix of absolute values twice, from the same zero: one sum. -/
theorem ref_sum_again (a : (⟨Cert.ReferenceIdeal.S8192, .f32⟩ : BufTy).Contents (Elt F))
    (C0 : (⟨Cert.ReferenceIdeal.S8192x8192, .f32⟩ : BufTy).Contents (Elt F)) :
    val_main_v35 (F := F) a C0 = val_main_v17 (F := F) a C0 := rfl

end Cert.KernelIdeal.Tail

end
-- ==== Proof.KernelRun.lean ====
/-
  The idealized kernel's program, read end to end.

  Every weakly fair execution ends with the correlation result at the reference's updated matrix of the arguments, and
  with the coherence, the integration measure and the synchrony at the reference's own last lines applied to the
  reference's three sums: the region leaves the updated matrix and the three slot arrays, the host adds up the slots,
  the slot sums are the reference's sums, and the last lines are shared.
-/
import proofs.«116466_j87935160418590_2_alg».proof.Proof.Tail

noncomputable section

open Idealize.ShloMosaic Idealize.ShloMosaic.TcCoe Idealize.SL.Sem

namespace Cert.KernelIdeal.Result

open Cert.KernelIdeal Cert.KernelIdeal.Gen Cert.KernelIdeal.Arrays Cert.KernelIdeal.Totals Cert.KernelIdeal.Tail

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v2_0)
        = Cert.ReferenceIdeal.Read.val_main_v15 (F := Ideal) (m ((c.tc : Thread nD τ).loc main_arg0)) (m ((c.tc : Thread nD τ).loc main_arg2))
      ∧ r.2.mem ((c.tc : Thread nD τ).loc main_v11)
        = Cert.ReferenceIdeal.Read.val_main_v23 (F := Ideal) (m ((c.tc : Thread nD τ).loc main_arg0)) (m ((c.tc : Thread nD τ).loc main_arg2))
            (m ((c.tc : Thread nD τ).loc main_arg3))
      ∧ r.2.mem ((c.tc : Thread nD τ).loc main_v19)
        = Cert.ReferenceIdeal.Read.val_main_v34 (F := Ideal) (m ((c.tc : Thread nD τ).loc main_arg0)) (m ((c.tc : Thread nD τ).loc main_arg1))
            (m ((c.tc : Thread nD τ).loc main_arg2)) (m ((c.tc : Thread nD τ).loc main_arg4))
      ∧ r.2.mem ((c.tc : Thread nD τ).loc main_v20)
        = Cert.ReferenceIdeal.Read.val_main_v36 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 4).trans (final_tile m c),
      ((h c).2 main_v11 (Pipeline.mem_restRefs_of main_v11 (by decide) (by decide))).trans ((tail_coherence m c).trans (by
        rw [final_abs, abs_total, ← ref_coherence])),
      ((h c).2 main_v19 (Pipeline.mem_restRefs_of main_v19 (by decide) (by decide))).trans ((tail_integration m c).trans (by
        rw [final_weighted, final_weight, weighted_total, weight_total, ← ref_integration])),
      ((h c).2 main_v20 (Pipeline.mem_restRefs_of main_v20 (by decide) (by decide))).trans ((tail_synchrony m c).trans (by
        rw [final_abs, abs_total, ← ref_sum_again, ← ref_synchrony])),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The proof of `Cert.Claim`: a Pallas kernel that updates an 8192 × 8192 correlation matrix tile by tile — off the
  diagonal 0.9 · C + 0.1 · aᵢ · aⱼ, on it C unchanged — and forms a coherence, an integration measure and a synchrony
  from three sums over the matrix, against the same computation written with whole-array operations.

  The updated matrix is the same function of the arguments entry by entry on both sides: the kernel compares a tile's
  row 1024·i + p with its column 1024·j + q, the reference the matrix's row with its column, and the arithmetic and its
  literals are the same. The three sums differ only in how they are formed. The kernel sums each 1024 × 1024 tile,
  multiplies the tile's sum by 2⁻¹⁰, and adds it to every one of the 1024 slots of a running total kept per row of tiles;
  the host then adds up all 64 × 128 slots. Since 1024 copies of x · 2⁻¹⁰ add up to x for every extended real x, and
  sums of extended reals regroup freely, that grand total is the sum over the whole matrix the reference takes. The
  last lines, which turn the three sums into the three small results, are the same in both programs. So the equality
  holds for all inputs, finite or not, and the precondition is not used.

  The three frames are the generated ones (the reference's is its generated run with the results dropped); the ideal
  pass rewrote nothing, so `preserves` is trivial.
-/
import proofs.«116466_j87935160418590_2_alg».proof.Defs
import proofs.«116466_j87935160418590_2_alg».proof.Proof.Gen.Kernel
import proofs.«116466_j87935160418590_2_alg».proof.Proof.Gen.Kernel.Frame
import proofs.«116466_j87935160418590_2_alg».proof.Proof.Gen.KernelIdeal
import proofs.«116466_j87935160418590_2_alg».proof.Proof.Gen.KernelIdeal.Frame
import proofs.«116466_j87935160418590_2_alg».proof.Proof.Gen.ReferenceIdeal
import proofs.«116466_j87935160418590_2_alg».proof.Proof.Gen.Pre_finite_inputs
import proofs.«116466_j87935160418590_2_alg».proof.Proof.Gen.ReferenceIdeal.Run
import proofs.«116466_j87935160418590_2_alg».proof.Proof.Gen.ReferenceIdeal.Read
import proofs.«116466_j87935160418590_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories that agree on the arguments both programs end with the reference's four functions of those
    arguments: the kernel's program by its run read end to end, the reference by its own run. -/
theorem algebraic : Cert.algebraic_KernelIdeal_ReferenceIdeal := by
  intro m ρ m' ρ' _ hagree
  refine ⟨fun c => Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ?_) (Cert.ReferenceIdeal.Value.run (F := Ideal) m' ρ')
  obtain ⟨r0, r1, r2, r3, k0, k1, k2, k3, k4⟩ := h c
  obtain ⟨g0, g1, g2, g3, g4⟩ := hagree c
  refine ⟨?_, ?_, ?_, ?_, k0, k1, k2, k3, k4⟩
  · rw [r0, Cert.ReferenceIdeal.Read.val_main_v15_eq, g0, g2]
  · rw [r1, Cert.ReferenceIdeal.Read.val_main_v23_eq, g0, g2, g3]
  · rw [r2, Cert.ReferenceIdeal.Read.val_main_v34_eq, g0, g1, g2, g4]
  · rw [r3, Cert.ReferenceIdeal.Read.val_main_v36_eq, g0, g2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
